-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S1x1024x64 : Shape := ⟨3, ![1, 1024, 64]⟩
abbrev S1x2048x64 : Shape := ⟨3, ![1, 2048, 64]⟩
abbrev S2048x64 : Shape := ⟨2, ![2048, 64]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S2048x64, .bf16⟩
  | .local _ .vmem, ⟨9, _⟩ => ⟨S2048x64, .bf16⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibSoftmaxReal.lean ====
import Idealize.ShloMosaic.PureOps.Ideal

/-!
# Softmax over the extended reals, on a row of real scores

A softmax of a row of scores s, computed the stable way, takes the row's maximum M (a fold of max from the bottom),
the exponentials e j = exp (s j - M), and their sum D. Two programs may then differ in how they normalise: one
multiplies e j by the reciprocal 1 / D, the other divides e j by D. On the extended reals the quotient by D is the
product with D's inverse only where D is not zero, so the two agree exactly when D ≠ 0. This file shows that a row of
real scores over a finite index type with at least one index gives that, with nothing asked about which index attains
the maximum:

* coe_sum: a finite sum of reals read in the extended reals is the real sum.
* exp_nonneg: the exponential of an extended real is nowhere negative (0 at the bottom, the top at the top).
* foldMax_real: the fold of max from the bottom over a row of real scores is a real number: it is above any one
  score, which is not the bottom, and every score is below the top.
* sumExpShift_ne_zero: so the sum of the shifted exponentials is not zero: every term is nonnegative and any one
  term is the exponential of a real, which is positive.
* mul_div_one_eq_div: off zero, the product with the reciprocal is the quotient.
-/

noncomputable section

namespace Cert.LibSoftmaxReal

open Idealize.ShloMosaic

/-- A finite sum of reals, read in the extended reals, is the real sum. -/
theorem coe_sum {ι : Type*} (t : Finset ι) (f : ι → ℝ) : (∑ x ∈ t, ((f x : ℝ) : EReal)) = ((∑ x ∈ t, f x : ℝ) : EReal) := by
  classical
  induction t using Finset.induction_on with
  | empty => simp
  | insert a t ha ih => rw [Finset.sum_insert ha, Finset.sum_insert ha, ih, EReal.coe_add]

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

section Row

variable {ι : Type*} [Fintype ι]

/-- The maximum, folded from the bottom, of a row of real scores with at least one index is a real number. -/
theorem foldMax_real (s : ι → EReal) (hs : ∀ j, ∃ r : ℝ, s j = r) (j0 : ι) :
    ∃ μ : ℝ, (Finset.univ : Finset ι).fold max ⊥ s = μ := by
  have hlt : (Finset.univ : Finset ι).fold max ⊥ s < ⊤ := by
    rw [Finset.fold_max_lt]
    refine ⟨bot_lt_top, fun j _ => ?_⟩
    obtain ⟨r, hr⟩ := hs j
    rw [hr]; exact EReal.coe_lt_top r
  have hge : s j0 ≤ (Finset.univ : Finset ι).fold max ⊥ s := by
    rw [Finset.le_fold_max]
    exact Or.inr ⟨j0, Finset.mem_univ _, le_refl _⟩
  obtain ⟨r0, hr0⟩ := hs j0
  have hbot : (Finset.univ : Finset ι).fold max ⊥ s ≠ ⊥ := by
    intro h
    rw [h, hr0] at hge
    exact absurd (le_bot_iff.mp hge) (EReal.coe_ne_bot r0)
  exact ⟨((Finset.univ : Finset ι).fold max ⊥ s).toReal, (EReal.coe_toReal hlt.ne hbot).symm⟩

/-- The sum of the exponentials of a row of real scores shifted by the row's maximum is not zero. -/
theorem sumExpShift_ne_zero (s : ι → EReal) (hs : ∀ j, ∃ r : ℝ, s j = r) (j0 : ι) :
    (∑ j : ι, Ideal.exp (s j - (Finset.univ : Finset ι).fold max ⊥ s)) ≠ 0 := by
  obtain ⟨μ, hμ⟩ := foldMax_real s hs j0
  obtain ⟨r0, hr0⟩ := hs j0
  have hpos : 0 < Ideal.exp (s j0 - (Finset.univ : Finset ι).fold max ⊥ s) := by
    rw [hμ, hr0, ← EReal.coe_sub, Ideal.exp_coe]
    exact EReal.coe_pos.mpr (Real.exp_pos _)
  have hle : Ideal.exp (s j0 - (Finset.univ : Finset ι).fold max ⊥ s)
      ≤ ∑ j : ι, Ideal.exp (s j - (Finset.univ : Finset ι).fold max ⊥ s) :=
    Finset.single_le_sum (f := fun j => Ideal.exp (s j - (Finset.univ : Finset ι).fold max ⊥ s))
      (fun j _ => exp_nonneg _) (Finset.mem_univ j0)
  exact (lt_of_lt_of_le hpos hle).ne'

end Row

/-- Off zero, the product with the reciprocal is the quotient. -/
theorem mul_div_one_eq_div (e D : EReal) (hD : D ≠ 0) : e * Ideal.div 1 D = Ideal.div e D := by
  unfold Ideal.div
  rw [if_neg hD, if_neg hD, one_mul]

end Cert.LibSoftmaxReal

end
-- ==== Proof.AttentionSpec.lean ====
/-
  Scaled dot-product attention over three arrays of shape [32, 2048, 64], index by index on the extended reals:
  for batch b, query row i and output column d,

      out (b, i, d) = ∑ j, w (b, i, j) · v (b, j, d),

  where the weights w (b, i, ·) are the softmax of a row of scores s (b, i, ·): with M the maximum of the row,
  e j = exp (s j - M) and D = ∑ j, e j, the weight is e j over D.

  Two arrangements of this one function are stated. In the first the scale 1/8 multiplies each entry of q before
  the contraction with k, and e j is multiplied by the reciprocal 1 / D. In the second the contraction of q with k
  is divided by 8, and e j is divided by D. They agree wherever q and k hold real numbers: a real factor moves
  across a finite sum of reals, and a row of real scores has a real maximum, so every e j is a positive real, D is
  a nonzero real, and dividing by it is multiplying by its reciprocal. Nothing is asked of v.
-/
import Idealize.ShloMosaic.PureOps.Ideal
import Idealize.ShloMosaic.PureOps.Ideal.Laws
import Idealize.ShloMosaic.Lib.ValueIdx
import proofs.«116670_j13649406066811_2_alg».proof.Proof.LibSoftmaxReal

noncomputable section

namespace Cert.AttentionSpec

open Idealize.ShloMosaic Idealize.ShloMosaic.ValueIdx Cert.LibSoftmaxReal

/-! ## The four float patterns the two arrangements spell -/

/-- The pattern of minus infinity is the bottom of the extended reals. -/
theorem negInf_eq : Ideal.ofBits .f32 0xFF800000#32 = ⊥ := by
  simp [Ideal.ofBits, Ideal.ieee]

/-- The pattern of 0.125 is the real 1/8, exactly: 2⁻³. -/
theorem eighth_eq : Ideal.ofBits .f32 0x3E000000#32 = ((1 / 8 : ℝ) : EReal) := by
  simp [Ideal.ofBits, Ideal.ieee, -EReal.coe_mul]; norm_num

/-- The pattern of 8.0 is the real 8. -/
theorem eight_eq : Ideal.ofBits .f32 0x41000000#32 = ((8 : ℝ) : EReal) := by
  simp [Ideal.ofBits, Ideal.ieee, -EReal.coe_mul]; norm_num

/-- The pattern of 1.0 is 1. -/
theorem one_eq : Ideal.ofBits .f32 0x3F800000#32 = 1 := by
  simp [Ideal.ofBits, Ideal.ieee, -EReal.coe_mul]; norm_num

/-! ## The softmax of one row of 2048 scores -/

/-- The maximum of a row, folded from minus infinity. -/
def rowMax (s : Fin 2048 → EReal) : EReal :=
  (Finset.univ : Finset (Fin 2048)).fold max (Ideal.ofBits .f32 0xFF800000#32) s

/-- The exponential of a score's distance below the row's maximum. -/
def expShift (s : Fin 2048 → EReal) (j : Fin 2048) : EReal := Ideal.exp (s j - rowMax s)

/-- The row's normaliser: the sum of its shifted exponentials. -/
def rowSum (s : Fin 2048 → EReal) : EReal := ∑ j : Fin 2048, expShift s j

/-- A weight as a product with the reciprocal of the normaliser. -/
def weightMul (s : Fin 2048 → EReal) (j : Fin 2048) : EReal :=
  expShift s j * Ideal.div (Ideal.ofBits .f32 0x3F800000#32) (rowSum s)

/-- A weight as a quotient by the normaliser. -/
def weightDiv (s : Fin 2048 → EReal) (j : Fin 2048) : EReal := Ideal.div (expShift s j) (rowSum s)

/-! ## The scores and the two arrangements -/

/-- An array of shape [32, 2048, 64] of extended reals. -/
abbrev Arr : Type := (⟨3, ![32, 2048, 64]⟩ : Shape).Idx → EReal

/-- Scores with the scale 1/8 on each entry of q, before the contraction. -/
def scoreIn (q k : Arr) (b : Fin 32) (i j : Fin 2048) : EReal :=
  ∑ d : Fin 64, (q (ix3 b i d) * Ideal.ofBits .f32 0x3E000000#32) * k (ix3 b j d)

/-- Scores with the contraction divided by 8. -/
def scoreOut (q k : Arr) (b : Fin 32) (i j : Fin 2048) : EReal :=
  Ideal.div (∑ d : Fin 64, q (ix3 b i d) * k (ix3 b j d)) (Ideal.ofBits .f32 0x41000000#32)

/-- Attention with the scale inside the contraction and the weights by reciprocal. -/
def attnIn (q k v : Arr) : Arr := fun i =>
  ∑ j : Fin 2048, weightMul (scoreIn q k (i 0) (i 1)) j * v (ix3 (i 0) j (i 2))

/-- Attention with the scale outside the contraction and the weights by quotient. -/
def attnOut (q k v : Arr) : Arr := fun i =>
  ∑ j : Fin 2048, weightDiv (scoreOut q k (i 0) (i 1)) j * v (ix3 (i 0) j (i 2))

/-! ## The two arrangements agree on real q and k -/

/-- On real rows of q and k the two scores are one real number: the factor 1/8 leaves the sum. -/
theorem scoreIn_eq_scoreOut (q k : Arr) (hq : ∀ x, ∃ r : ℝ, q x = r) (hk : ∀ x, ∃ r : ℝ, k x = r)
    (b : Fin 32) (i j : Fin 2048) :
    scoreIn q k b i j = scoreOut q k b i j ∧ ∃ r : ℝ, scoreOut q k b i j = r := by
  choose q' hq' using hq
  choose k' hk' using hk
  unfold scoreIn scoreOut
  rw [eighth_eq, eight_eq, Ideal.div_coe (by norm_num : (8 : ℝ) ≠ 0)]
  simp only [hq', hk', ← EReal.coe_mul, coe_sum]
  refine ⟨?_, _, rfl⟩
  rw [Finset.sum_mul]
  exact congrArg _ (Finset.sum_congr rfl fun d _ => by ring)

/-- The normaliser of a row of real scores is not zero: the row has an index, its maximum is then a real number, and
    the sum of nonnegative terms one of which is the exponential of a real is positive. -/
theorem rowSum_ne_zero (s : Fin 2048 → EReal) (hs : ∀ j, ∃ r : ℝ, s j = r) : rowSum s ≠ 0 := by
  unfold rowSum expShift rowMax
  rw [negInf_eq]
  exact sumExpShift_ne_zero s hs 0

/-- On a row of real scores the product with the reciprocal of the normaliser is the quotient by it. -/
theorem weightMul_eq_weightDiv (s : Fin 2048 → EReal) (hs : ∀ j, ∃ r : ℝ, s j = r) (j : Fin 2048) :
    weightMul s j = weightDiv s j := by
  unfold weightMul weightDiv
  rw [one_eq]
  exact mul_div_one_eq_div _ _ (rowSum_ne_zero s hs)

/-- The law: on real q and k the two arrangements of attention are one function, whatever v holds. -/
theorem attnIn_eq_attnOut (q k v : Arr) (hq : ∀ x, ∃ r : ℝ, q x = r) (hk : ∀ x, ∃ r : ℝ, k x = r) :
    attnIn q k v = attnOut q k v := by
  funext i
  unfold attnIn attnOut
  have hs : scoreIn q k (i 0) (i 1) = scoreOut q k (i 0) (i 1) :=
    funext fun j => (scoreIn_eq_scoreOut q k hq hk (i 0) (i 1) j).1
  rw [hs]
  refine Finset.sum_congr rfl fun j _ => ?_
  rw [weightMul_eq_weightDiv _ (fun j' => (scoreIn_eq_scoreOut q k hq hk (i 0) (i 1) j').2) j]

end Cert.AttentionSpec

end
-- ==== Proof.KernelPieces.lean ====
/-
  What one run of the kernel body leaves behind, as values.

  At a grid point whose second coordinate is zero the body first stores the key block and the value block, each with
  its leading unit axis dropped, into the two scratch arrays, then reads them back; elsewhere it reads what the scratch
  arrays already hold. Either way it then stores, into the output block, the attention arithmetic of the query block
  against the two scratch arrays. So after a point of the first kind the scratch arrays hold that point's key and
  value blocks and the output block holds the arithmetic over them; after a point of the second kind the scratch arrays
  are unchanged and the output block holds the arithmetic over what they held.
-/
import proofs.«116670_j13649406066811_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Where the scratch arrays are carried: the output block is the arithmetic of the query block over what they hold. -/
theorem out_carried (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x64 .bf16) (harg7 : arg7.IsWhole) (hc0 : ¬cond0_0 i)
    (x0 : Vec F S1x1024x64 .f32) (x1 : Vec F S1x2048x64 .f32) (x2 : Vec F S1x2048x64 .f32) (xs0 xs1 : Vec F S2048x64 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz3]
  simp only [View.readAt_eq_ld, harg2.read_unread, harg6.read_unread, harg7.read_unread,
    View.ld_unit_zero (S := S1x1024x64) hz3, View.ld_unit_zero (S := S2048x64) hz2]

/-- Where the scratch arrays are stored: the key scratch ends holding the key block, its leading unit axis dropped. -/
theorem keys_stored (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x64 .bf16) (harg7 : arg7.IsWhole) (hc0 : cond0_0 i)
    (x0 : Vec F S1x1024x64 .f32) (x1 : Vec F S1x2048x64 .f32) (x2 : Vec F S1x2048x64 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x2048x64) hz3]

/-- … and the value scratch the value block, likewise. -/
theorem values_stored (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x64 .bf16) (harg7 : arg7.IsWhole) (hc0 : cond0_0 i)
    (x0 : Vec F S1x1024x64 .f32) (x1 : Vec F S1x2048x64 .f32) (x2 : Vec F S1x2048x64 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x64) hz3]

/-- … and the output block is the arithmetic of the query block over the two arrays just stored, read back. -/
theorem out_stored (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x64 .f32) (harg5 : arg5.IsWhole) (arg6 : Memref sig .tc .vmem S2048x64 .bf16) (harg6 : arg6.IsWhole) (arg7 : Memref sig .tc .vmem S2048x64 .bf16) (harg7 : arg7.IsWhole) (hc0 : cond0_0 i)
    (x0 : Vec F S1x1024x64 .f32) (x1 : Vec F S1x2048x64 .f32) (x2 : Vec F S1x2048x64 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3]
  simp only [View.readCov_unit_zero (S := S2048x64) _ hz2, View.readAt_eq_ld, harg2.read_unread, harg3.read_unread,
    harg4.read_unread, View.ld_unit_zero (S := S1x1024x64) hz3, View.ld_unit_zero (S := S1x2048x64) hz3]

end Cert.KernelIdeal.Pieces

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.KernelPayload.lean ====
/-
  What the kernel body computes at one grid point, entry by entry on the extended reals.

  The body holds a query block x0 of shape [1, 1024, 64] and two arrays xk, xv of shape [2048, 64] (the keys and
  values of the batch). Entry (r, d) of what it stores is

      ∑ j, w r j · xv (j, d),     w r j = e r j · (1 / ∑ j', e r j'),     e r j = exp (s r j - max over j' of s r j'),
      s r j = ∑ dd, (x0 (0, r, dd) · 1/8) · xk (j, dd):

  the first matrix product contracts the last axis of both operands, the second the columns of the weights with the
  rows of xv; the row maximum and the row sum are lane reductions, kept as columns [1024, 1] and broadcast back
  along the rows. The two arrays xk and xv are themselves the key and value blocks [1, 2048, 64] with the leading unit
  axis dropped. A change of float format is the identity here.
-/
import proofs.«116670_j13649406066811_2_alg».proof.Proof.Gen.KernelIdeal.Skeleton
import proofs.«116670_j13649406066811_2_alg».proof.Proof.AttentionSpec
import proofs.«116670_j13649406066811_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.AttentionSpec
open Cert.LibColumnLayout

/-! ## The two matrix products at an entry -/

/-! The operand indices of the first product (the last axis of both operands contracted), axis by axis. -/
theorem qk_lhs_0 (i : S1024x2048.Idx) (q : dot_S1024x64_S2048x64_S1024x2048_1_1_0_0_n_n.contr.Idx) : (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) : (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) : (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) : (dot_S1024x64_S2048x64_S1024x2048_1_1_0_0_n_n.rhsIdx i q 1).val = (q ⟨0, by decide⟩).val :=
  dot_S1024x64_S2048x64_S1024x2048_1_1_0_0_n_n.rhsIdx_val_of_single rfl i q

/-- Rows of A against rows of B: entry (r, j) of the product contracting the last axis of both is ∑ dd, A (r, dd) · B (j, dd). -/
theorem matmul_rows_rows_apply (A : FVec Ideal S1024x64 .bf16) (B : FVec Ideal S2048x64 .bf16) (r : Fin 1024) (j : Fin 2048) :
    matmul dot_S1024x64_S2048x64_S1024x2048_1_1_0_0_n_n none A B (constant (F := Ideal) S1024x2048 .f32 0x00000000#32) (ix2 r j)
      = ∑ dd : Fin 64, A (ix2 r dd) * B (ix2 j dd) := by
  simp only [matmul]
  rw [Ideal.matmul_constant_zero_apply, ← Equiv.sum_comp (contrEquiv1 dot_S1024x64_S2048x64_S1024x2048_1_1_0_0_n_n 64 rfl rfl).symm]
  refine Finset.sum_congr rfl fun dd _ => ?_
  have hk := contrEquiv1_symm_val dot_S1024x64_S2048x64_S1024x2048_1_1_0_0_n_n 64 rfl rfl dd
  have el : dot_S1024x64_S2048x64_S1024x2048_1_1_0_0_n_n.lhsIdx (ix2 r j) ((contrEquiv1 dot_S1024x64_S2048x64_S1024x2048_1_1_0_0_n_n 64 rfl rfl).symm dd) = ix2 r dd :=
    funext fun a => Fin.ext (by
      match a with
      | ⟨0, _⟩ => exact qk_lhs_0 _ _
      | ⟨1, _⟩ => exact (qk_lhs_1 _ _).trans hk)
  have er : dot_S1024x64_S2048x64_S1024x2048_1_1_0_0_n_n.rhsIdx (ix2 r j) ((contrEquiv1 dot_S1024x64_S2048x64_S1024x2048_1_1_0_0_n_n 64 rfl rfl).symm dd) = ix2 j dd :=
    funext fun a => Fin.ext (by
      match a with
      | ⟨0, _⟩ => exact qk_rhs_0 _ _
      | ⟨1, _⟩ => exact (qk_rhs_1 _ _).trans hk)
  rw [el, er]

/-! The operand indices of the second product (columns of the left operand against rows of the right), axis by axis. -/
theorem pv_lhs_0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs_1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- Rows of P against columns of V: entry (r, d) of the plain product is ∑ j, P (r, j) · V (j, d). -/
theorem matmul_rows_cols_apply (P : FVec Ideal S1024x2048 .bf16) (V : FVec Ideal S2048x64 .bf16) (r : Fin 1024) (d : Fin 64) :
    matmul dot_S1024x2048_S2048x64_S1024x64_1_0_0_1_n_n none P V (constant (F := Ideal) S1024x64 .f32 0x00000000#32) (ix2 r d)
      = ∑ j : Fin 2048, P (ix2 r j) * V (ix2 j d) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hk := contrEquiv1_symm_val dot_S1024x2048_S2048x64_S1024x64_1_0_0_1_n_n 2048 rfl rfl j
  have el : dot_S1024x2048_S2048x64_S1024x64_1_0_0_1_n_n.lhsIdx (ix2 r d) ((contrEquiv1 dot_S1024x2048_S2048x64_S1024x64_1_0_0_1_n_n 2048 rfl rfl).symm j) = ix2 r j :=
    funext fun a => Fin.ext (by
      match a with
      | ⟨0, _⟩ => exact pv_lhs_0 _ _
      | ⟨1, _⟩ => exact (pv_lhs_1 _ _).trans hk)
  have er : dot_S1024x2048_S2048x64_S1024x64_1_0_0_1_n_n.rhsIdx (ix2 r d) ((contrEquiv1 dot_S1024x2048_S2048x64_S1024x64_1_0_0_1_n_n 2048 rfl rfl).symm j) = ix2 j d :=
    funext fun a => Fin.ext (by
      match a with
      | ⟨0, _⟩ => exact (pv_rhs_0 _ _).trans hk
      | ⟨1, _⟩ => exact pv_rhs_1 _ _)
  rw [el, er]

/-! ## The two lane reductions of a [1024, 2048] array, and a column broadcast back along the rows -/

/-- Row r with lane j put back is (r, j). -/
theorem lift_row (r : Fin 1024) (j : Fin (S1024x2048.size 1)) :
    reduces_S1024x2048_S1024.lift (ix1 r) j = ix2 r (⟨j.val, j.isLt⟩ : Fin 2048) := by
  funext c; apply Fin.ext
  fin_cases c <;> rfl

/-- The lane maximum of row r, from minus infinity, is the maximum of that row. -/
theorem laneMax_apply (X : FVec Ideal S1024x2048 .f32) (r : Fin 1024) :
    multiReduction .maximumf [1] S1024 X 0xFF800000#32 reduces_S1024x2048_S1024 (.inl rfl) rfl (ix1 r)
      = rowMax fun j => X (ix2 r j) := by
  refine (Ideal.multiReduction_maximumf_single X 0xFF800000#32 reduces_S1024x2048_S1024 (.inl rfl) rfl (ix1 r)).trans ?_
  unfold rowMax
  have hf : (X ∘ reduces_S1024x2048_S1024.lift (ix1 r)) = fun j : Fin 2048 => X (ix2 r j) :=
    funext fun j => congrArg X (lift_row r j)
  exact congrArg (fun f => Finset.fold max (Ideal.ofBits .f32 0xFF800000#32) f (Finset.univ : Finset (Fin 2048))) hf

/-- The lane sum of row r is the sum of that row. -/
theorem laneSum_apply (X : FVec Ideal S1024x2048 .f32) (r : Fin 1024) :
    multiReduction .add [1] S1024 X 0x00000000#32 reduces_S1024x2048_S1024 (.inl rfl) rfl (ix1 r)
      = ∑ j : Fin 2048, X (ix2 r j) := by
  refine (Ideal.multiReduction_add_single X 0x00000000#32 reduces_S1024x2048_S1024 (.inl rfl) rfl (ix1 r)).trans ?_
  exact Finset.sum_congr rfl fun j _ => congrArg X (lift_row r j)

/-- A flat [1024] array made a column and broadcast along the rows reads, at (r, j), the array at r. -/
theorem column_apply (c : FVec Ideal S1024 .f32) (r : Fin 1024) (j : Fin 2048) :
    broadcastTo S1024x2048 (shapeCast S1024x1 c shapeCasts_S1024_S1024x1) broadcasts_S1024x1_S1024x2048 (ix2 r j) = c (ix1 r) :=
  (broadcastTo_a1_ab_apply _ broadcasts_S1024x1_S1024x2048 r j).trans (shapeCast_a_a1_apply c shapeCasts_S1024_S1024x1 r 0)

/-! ## The body's arithmetic, stage by stage -/

/-- The scores of a query block against the keys: the block, its leading unit axis dropped, scaled entrywise by the
    pattern of 1/8, contracted with the keys along the last axis of both. -/
def scores (x0 : FVec Ideal S1x1024x64 .f32) (xk : FVec Ideal S2048x64 .bf16) : FVec Ideal S1024x2048 .f32 :=
  matmul dot_S1024x64_S2048x64_S1024x2048_1_1_0_0_n_n none
    (truncf .bf16 (mulf (shapeCast S1024x64 x0 shapeCasts_S1x1024x64_S1024x64)
      (broadcast S1024x64 (Scalar.ofBits (F := Ideal) .f32 0x3E000000#32))) bitsLt_bf16_f32)
    xk (constant (F := Ideal) S1024x2048 .f32 0x00000000#32)

/-- Each score's exponential distance below its row's maximum. -/
def expo (X : FVec Ideal S1024x2048 .f32) : FVec Ideal S1024x2048 .f32 :=
  exp (subf X (broadcastTo S1024x2048
    (shapeCast S1024x1 (multiReduction .maximumf [1] S1024 X 0xFF800000#32 reduces_S1024x2048_S1024 (.inl rfl) rfl)
      shapeCasts_S1024_S1024x1) broadcasts_S1024x1_S1024x2048))

/-- Each entry times the reciprocal of its row's sum. -/
def weights (E : FVec Ideal S1024x2048 .f32) : FVec Ideal S1024x2048 .f32 :=
  mulf E (broadcastTo S1024x2048
    (divf (broadcast S1024x1 (Scalar.ofBits (F := Ideal) .f32 0x3F800000#32))
      (shapeCast S1024x1 (multiReduction .add [1] S1024 E 0x00000000#32 reduces_S1024x2048_S1024 (.inl rfl) rfl)
        shapeCasts_S1024_S1024x1)) broadcasts_S1024x1_S1024x2048)

/-- The stored output block is the weights of the scores, multiplied into the values, with a leading unit axis put back. -/
theorem pay3_eq (x0 : FVec Ideal S1x1024x64 .f32) (xk xv : FVec Ideal S2048x64 .bf16) :
    k0_pay3 (F := Ideal) x0 xk xv
      = shapeCast S1x1024x64
          (matmul dot_S1024x2048_S2048x64_S1024x64_1_0_0_1_n_n none (truncf .bf16 (weights (expo (scores x0 xk))) bitsLt_bf16_f32) xv
            (constant (F := Ideal) S1024x64 .f32 0x00000000#32))
          shapeCasts_S1024x64_S1x1024x64 := rfl

/-- Score (r, j): ∑ dd, (x0 (0, r, dd) · 1/8) · xk (j, dd). -/
theorem scores_apply (x0 : FVec Ideal S1x1024x64 .f32) (xk : FVec Ideal S2048x64 .bf16) (r : Fin 1024) (j : Fin 2048) :
    scores x0 xk (ix2 r j)
      = ∑ dd : Fin 64, (x0 (ix3 (0 : Fin 1) r dd) * Ideal.ofBits .f32 0x3E000000#32) * xk (ix2 j dd) := by
  unfold scores
  rw [matmul_rows_rows_apply]
  refine Finset.sum_congr rfl fun dd _ => ?_
  show (shapeCast S1024x64 x0 shapeCasts_S1x1024x64_S1024x64 (ix2 r dd) * Ideal.ofBits .f32 0x3E000000#32) * xk (ix2 j dd) = _
  rw [shapeCast_1ab_ab_apply x0 shapeCasts_S1x1024x64_S1024x64 r dd]

/-- Entry (r, j) of the shifted exponentials is the softmax numerator of row r at j. -/
theorem expo_apply (X : FVec Ideal S1024x2048 .f32) (r : Fin 1024) (j : Fin 2048) :
    expo X (ix2 r j) = expShift (fun j' => X (ix2 r j')) j := by
  unfold expo expShift
  show Ideal.exp (X (ix2 r j) - broadcastTo S1024x2048
    (shapeCast S1024x1 (multiReduction .maximumf [1] S1024 X 0xFF800000#32 reduces_S1024x2048_S1024 (.inl rfl) rfl)
      shapeCasts_S1024_S1024x1) broadcasts_S1024x1_S1024x2048 (ix2 r j)) = _
  rw [column_apply, laneMax_apply]

/-- Entry (r, j) of the weights is the entry times the reciprocal of row r's sum. -/
theorem weights_apply (E : FVec Ideal S1024x2048 .f32) (r : Fin 1024) (j : Fin 2048) :
    weights E (ix2 r j) = E (ix2 r j) * Ideal.div (Ideal.ofBits .f32 0x3F800000#32) (∑ j' : Fin 2048, E (ix2 r j')) := by
  unfold weights
  show E (ix2 r j) * broadcastTo S1024x2048
    (divf (broadcast S1024x1 (Scalar.ofBits (F := Ideal) .f32 0x3F800000#32))
      (shapeCast S1024x1 (multiReduction .add [1] S1024 E 0x00000000#32 reduces_S1024x2048_S1024 (.inl rfl) rfl)
        shapeCasts_S1024_S1024x1)) broadcasts_S1024x1_S1024x2048 (ix2 r j) = _
  rw [broadcastTo_a1_ab_apply _ broadcasts_S1024x1_S1024x2048 r j]
  show E (ix2 r j) * Ideal.div (Ideal.ofBits .f32 0x3F800000#32)
    (shapeCast S1024x1 (multiReduction .add [1] S1024 E 0x00000000#32 reduces_S1024x2048_S1024 (.inl rfl) rfl)
      shapeCasts_S1024_S1024x1 (ix2 r (0 : Fin 1))) = _
  rw [shapeCast_a_a1_apply _ shapeCasts_S1024_S1024x1 r 0, laneSum_apply]

/-! ## The three stored values at an entry -/

/-- What goes into the key scratch at (j, d) is the key block at (0, j, d). -/
theorem pay1_apply (x1 : FVec Ideal S1x2048x64 .f32) (j : Fin 2048) (d : Fin 64) :
    k0_pay1 (F := Ideal) x1 (ix2 j d) = x1 (ix3 (0 : Fin 1) j d) := by
  show shapeCast S2048x64 (truncf .bf16 (shapeCast S2048x64 x1 shapeCasts_S1x2048x64_S2048x64) bitsLt_bf16_f32)
    shapeCasts_S2048x64_S2048x64 (ix2 j d) = _
  rw [shapeCast_self]
  exact shapeCast_1ab_ab_apply x1 shapeCasts_S1x2048x64_S2048x64 j d

/-- What goes into the value scratch at (j, d) is the value block at (0, j, d). -/
theorem pay2_apply (x2 : FVec Ideal S1x2048x64 .f32) (j : Fin 2048) (d : Fin 64) :
    k0_pay2 (F := Ideal) x2 (ix2 j d) = x2 (ix3 (0 : Fin 1) j d) := by
  show shapeCast S2048x64 (truncf .bf16 (shapeCast S2048x64 x2 shapeCasts_S1x2048x64_S2048x64) bitsLt_bf16_f32)
    shapeCasts_S2048x64_S2048x64 (ix2 j d) = _
  rw [shapeCast_self]
  exact shapeCast_1ab_ab_apply x2 shapeCasts_S1x2048x64_S2048x64 j d

/-- The output block at (u, r, d): the softmax weights of row r's scores, by reciprocal, against column d of the values. -/
theorem pay3_apply (x0 : FVec Ideal S1x1024x64 .f32) (xk xv : FVec Ideal S2048x64 .bf16) (u : Fin 1) (r : Fin 1024) (d : Fin 64) :
    k0_pay3 (F := Ideal) x0 xk xv (ix3 u r d)
      = ∑ j : Fin 2048,
          weightMul (fun j' => ∑ dd : Fin 64, (x0 (ix3 (0 : Fin 1) r dd) * Ideal.ofBits .f32 0x3E000000#32) * xk (ix2 j' dd)) j
            * xv (ix2 j d) := by
  rw [pay3_eq, shapeCast_ab_1ab_apply _ shapeCasts_S1024x64_S1x1024x64 u r d, matmul_rows_cols_apply]
  refine Finset.sum_congr rfl fun j _ => ?_
  show weights (expo (scores x0 xk)) (ix2 r j) * xv (ix2 j d) = _
  simp only [weights_apply, expo_apply, scores_apply]
  rfl

/-! ## From blocks to whole arrays -/

/-- If row r of the query block is row i of batch b of an array Q, and the two scratch arrays hold batch b of arrays
    K and W, then entry (u, r, d) of what the body stores is attention (scale inside, weights by reciprocal) of
    Q, K, W at (b, i, d). -/
theorem body_entry (x0 : FVec Ideal S1x1024x64 .f32) (xk xv : FVec Ideal S2048x64 .bf16) (Q K W : Arr)
    (b : Fin 32) (i : Fin 2048) (u : Fin 1) (r : Fin 1024) (d : Fin 64)
    (hq : ∀ dd : Fin 64, x0 (ix3 (0 : Fin 1) r dd) = Q (ix3 b i dd))
    (hk : ∀ (j : Fin 2048) (dd : Fin 64), xk (ix2 j dd) = K (ix3 b j dd))
    (hv : ∀ (j : Fin 2048) (dd : Fin 64), xv (ix2 j dd) = W (ix3 b j dd)) :
    k0_pay3 (F := Ideal) x0 xk xv (ix3 u r d) = attnIn Q K W (ix3 b i d) := by
  rw [pay3_apply]
  simp only [hq, hk, hv]
  rfl

end Cert.KernelIdeal.Payload

end
-- ==== Proof.KernelValue.lean ====
/-
  The kernel's result array, entry by entry, as attention of the three argument arrays.

  The grid is 32 batches by 2 query tiles, visited batch by batch: point t is tile t mod 2 of batch t div 2. Its query
  block and its output block are rows (t mod 2) · 1024 … + 1023 of batch t div 2; its key and value blocks are all
  of batch t div 2, the same at both points of a batch. After an even point the two scratch arrays hold that point's
  key and value blocks; an odd point leaves them as they were; so after every point they hold batch t div 2 of the
  key and value arrays. Hence what point t writes back is attention of its batch at its rows, the blocks of the 64
  points tile the result array, and the array ends as attention of the arguments everywhere.
-/
import proofs.«116670_j13649406066811_2_alg».proof.Proof.Gen.KernelIdeal.Value
import proofs.«116670_j13649406066811_2_alg».proof.Proof.KernelPieces
import proofs.«116670_j13649406066811_2_alg».proof.Proof.KernelPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.AttentionSpec Cert.KernelIdeal.Pieces Cert.KernelIdeal.Payload

variable (m : (ℓ : Loc nD τ sig) → Buf (Elt Ideal) ℓ) (ρ : Dev nD → PrngReg)

/-- The three argument arrays on core c, as launched. -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)

/-- The block indices of the four windows at every point, decided over the grid. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The batch of point t, and the array row of row r of its query tile. -/
abbrev batchOf (t : Fin cfg0.N) : Fin 32 := ⟨t.val / 2, by have h := t.isLt; have hN : cfg0.N = 64 := N_0; omega⟩
abbrev rowOf (t : Fin cfg0.N) (r : Fin 1024) : Fin 2048 := ⟨t.val % 2 * 1024 + r.val, by have h := r.isLt; omega⟩

/-! ## The input blocks at an entry -/

/-- Entry (u, r, dd) of point t's query block is the query array at (batch, row, dd). -/
theorem qblock (c : Dev nD) (t : Fin cfg0.N) (u : Fin 1) (r : Fin 1024) (dd : Fin 64) :
    (iblk m c 0 t : Vec Ideal S1x1024x64 .f32) (ix3 u r dd) = argQ m c (ix3 (batchOf t) (rowOf t r) dd) := by
  obtain ⟨e0, e1, e2, -⟩ := idx_facts t
  unfold iblk
  rw [View.read_apply]
  show V m c main_arg0 (((cfg0.win 0).blk t).view.emb (ix3 u r dd)) = V m c main_arg0 (ix3 (batchOf t) (rowOf t r) dd)
  refine congrArg (V m c main_arg0) (funext fun a => Fin.ext ?_)
  match a with
  | ⟨0, _⟩ => show win0_0.index t (0 : Fin 3) * 1 + 1 * u.val = t.val / 2; have := u.isLt; omega
  | ⟨1, _⟩ => show win0_0.index t (1 : Fin 3) * 1024 + 1 * r.val = t.val % 2 * 1024 + r.val; omega
  | ⟨2, _⟩ => show win0_0.index t (2 : Fin 3) * 64 + 1 * dd.val = dd.val; omega

/-- Entry (u, j, dd) of point t's key block is the key array at (batch, j, dd). -/
theorem kblock (c : Dev nD) (t : Fin cfg0.N) (u : Fin 1) (j : Fin 2048) (dd : Fin 64) :
    (iblk m c 1 t : Vec Ideal S1x2048x64 .f32) (ix3 u j dd) = argK m c (ix3 (batchOf t) j dd) := by
  obtain ⟨-, -, -, e0, e1, e2, -⟩ := idx_facts t
  unfold iblk
  rw [View.read_apply]
  show V m c main_arg1 (((cfg0.win 1).blk t).view.emb (ix3 u j dd)) = V m c main_arg1 (ix3 (batchOf t) j dd)
  refine congrArg (V m c main_arg1) (funext fun a => Fin.ext ?_)
  match a with
  | ⟨0, _⟩ => show win0_1.index t (0 : Fin 3) * 1 + 1 * u.val = t.val / 2; have := u.isLt; omega
  | ⟨1, _⟩ => show win0_1.index t (1 : Fin 3) * 2048 + 1 * j.val = j.val; omega
  | ⟨2, _⟩ => show win0_1.index t (2 : Fin 3) * 64 + 1 * dd.val = dd.val; omega

/-- Entry (u, j, dd) of point t's value block is the value array at (batch, j, dd). -/
theorem vblock (c : Dev nD) (t : Fin cfg0.N) (u : Fin 1) (j : Fin 2048) (dd : Fin 64) :
    (iblk m c 2 t : Vec Ideal S1x2048x64 .f32) (ix3 u j dd) = argV m c (ix3 (batchOf t) j dd) := by
  obtain ⟨-, -, -, -, -, -, e0, e1, e2, -⟩ := idx_facts t
  unfold iblk
  rw [View.read_apply]
  show V m c main_arg2 (((cfg0.win 2).blk t).view.emb (ix3 u j dd)) = V m c main_arg2 (ix3 (batchOf t) j dd)
  refine congrArg (V m c main_arg2) (funext fun a => Fin.ext ?_)
  match a with
  | ⟨0, _⟩ => show win0_2.index t (0 : Fin 3) * 1 + 1 * u.val = t.val / 2; have := u.isLt; omega
  | ⟨1, _⟩ => show win0_2.index t (1 : Fin 3) * 2048 + 1 * j.val = j.val; omega
  | ⟨2, _⟩ => show win0_2.index t (2 : Fin 3) * 64 + 1 * dd.val = dd.val; omega

/-! ## What every point leaves behind -/

/-- After an even point: the output block is the body's arithmetic over the point's own key and value blocks, which
    are also what the two scratch arrays now hold. -/
theorem outs_even (c : Dev nD) (t : Fin cfg0.N) (h0 : t.val % 2 = 0) :
    outsAt0 m c t.val t.isLt
      = (k0_pay3 (F := Ideal) (iblk m c 0 t) (k0_pay1 (F := Ideal) (iblk m c 1 t)) (k0_pay2 (F := Ideal) (iblk m c 2 t)),
         k0_pay1 (F := Ideal) (iblk m c 1 t), k0_pay2 (F := Ideal) (iblk m c 2 t)) :=
  (outsAt0_A m c t h0).trans
    (congr (congrArg Prod.mk (out_stored (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)))
      (congr (congrArg Prod.mk (keys_stored (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)))
        (values_stored (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t))))

/-- After an odd point: the output block is the body's arithmetic over what the scratch arrays held before it, and
    they still hold it. -/
theorem outs_odd (c : Dev nD) (t : Fin cfg0.N) (h0 : ¬t.val % 2 = 0) :
    outsAt0 m c t.val t.isLt = (k0_pay3 (F := Ideal) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) :=
  (outsAt0_B m c t h0).trans
    (congrArg (fun x => (x, (outsAt0 m c (t.val - 1) (Nat.lt_of_le_of_lt (Nat.sub_le _ _) t.isLt)).2.1, (outsAt0 m c (t.val - 1) (Nat.lt_of_le_of_lt (Nat.sub_le _ _) t.isLt)).2.2))
      (out_carried (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2))

/-- After an even point the scratch arrays hold its batch of the key and value arrays. -/
theorem scratch_even (c : Dev nD) (t : Fin cfg0.N) (h0 : t.val % 2 = 0) (j : Fin 2048) (dd : Fin 64) :
    (outsAt0 m c t.val t.isLt).2.1 (ix2 j dd) = argK m c (ix3 (batchOf t) j dd)
      ∧ (outsAt0 m c t.val t.isLt).2.2 (ix2 j dd) = argV m c (ix3 (batchOf t) j dd) := by
  rw [outs_even m c t h0]
  exact ⟨(pay1_apply (iblk m c 1 t) j dd).trans (kblock m c t 0 j dd),
    (pay2_apply (iblk m c 2 t) j dd).trans (vblock m c t 0 j dd)⟩

/-- Before an odd point they hold the same batch: the even point before it is the other tile of that batch. -/
theorem scratch_before_odd (c : Dev nD) (t : Fin cfg0.N) (h0 : ¬t.val % 2 = 0) (j : Fin 2048) (dd : Fin 64) :
    (outsAt0 m c (t.val - 1) (Nat.lt_of_le_of_lt (Nat.sub_le _ _) t.isLt)).2.1 (ix2 j dd) = argK m c (ix3 (batchOf t) j dd) ∧ (outsAt0 m c (t.val - 1) (Nat.lt_of_le_of_lt (Nat.sub_le _ _) t.isLt)).2.2 (ix2 j dd) = argV m c (ix3 (batchOf t) j dd) := by
  have hN : cfg0.N = 64 := N_0
  have hlt := t.isLt
  have ht' : t.val - 1 < cfg0.N := by omega
  have h0' : (⟨t.val - 1, ht'⟩ : Fin cfg0.N).val % 2 = 0 := by show (t.val - 1) % 2 = 0; omega
  have hb : batchOf ⟨t.val - 1, ht'⟩ = batchOf t := Fin.ext (by show (t.val - 1) / 2 = t.val / 2; omega)
  have e := scratch_even m c ⟨t.val - 1, ht'⟩ h0' j dd
  rw [hb] at e
  exact e

/-! ## What each point stores, writes back, and the array after the run -/

/-- Entry (u, r, d) of what point t leaves in the output block is attention at (batch, row, d). -/
theorem stored_entry (c : Dev nD) (t : Fin cfg0.N) (u : Fin 1) (r : Fin 1024) (d : Fin 64) :
    (outsAt0 m c t.val t.isLt).1 (ix3 u r d) = attnIn (argQ m c) (argK m c) (argV m c) (ix3 (batchOf t) (rowOf t r) d) := by
  by_cases h0 : t.val % 2 = 0
  · rw [outs_even m c t h0]
    exact body_entry (iblk m c 0 t) (k0_pay1 (F := Ideal) (iblk m c 1 t)) (k0_pay2 (F := Ideal) (iblk m c 2 t))
      (argQ m c) (argK m c) (argV m c) (batchOf t) (rowOf t r) u r d
      (fun dd => qblock m c t 0 r dd)
      (fun j dd => (pay1_apply (iblk m c 1 t) j dd).trans (kblock m c t 0 j dd))
      (fun j dd => (pay2_apply (iblk m c 2 t) j dd).trans (vblock m c t 0 j dd))
  · rw [outs_odd m c t h0]
    exact body_entry (iblk m c 0 t) (outsAt0 m c (t.val - 1) (Nat.lt_of_le_of_lt (Nat.sub_le _ _) t.isLt)).2.1 (outsAt0 m c (t.val - 1) (Nat.lt_of_le_of_lt (Nat.sub_le _ _) t.isLt)).2.2
      (argQ m c) (argK m c) (argV m c) (batchOf t) (rowOf t r) u r d
      (fun dd => qblock m c t 0 r dd)
      (fun j dd => (scratch_before_odd m c t h0 j dd).1)
      (fun j dd => (scratch_before_odd m c t h0 j dd).2)

/-- What point t writes back is its block of attention of the argument arrays. -/
theorem flushed_eq (c : Dev nD) (t : Fin cfg0.N) :
    (dats m 0 c).flushed 3 t = ((cfg0.win 3).blk t).view.read (Elt Ideal) (attnIn (argQ m c) (argK m c) (argV m c)) := by
  obtain ⟨-, -, -, -, -, -, -, -, -, e0, e1, e2⟩ := idx_facts t
  rw [Value.flushed3]
  funext y
  obtain ⟨u, r, d, rfl⟩ : ∃ (u : Fin 1) (r : Fin 1024) (d : Fin 64), y = ix3 u r d := ⟨y 0, y 1, y 2, eq_ix3 y⟩
  show (outsAt0 m c t.val t.isLt).1 (ix3 u r d) = attnIn (argQ m c) (argK m c) (argV m c) (((cfg0.win 3).blk t).view.emb (ix3 u r d))
  rw [stored_entry]
  refine congrArg (attnIn (argQ m c) (argK m c) (argV m c)) (funext fun a => Fin.ext ?_)
  match a with
  | ⟨0, _⟩ => show t.val / 2 = win0_3.index t (0 : Fin 3) * 1 + 1 * u.val; have := u.isLt; omega
  | ⟨1, _⟩ => show t.val % 2 * 1024 + r.val = win0_3.index t (1 : Fin 3) * 1024 + 1 * r.val; omega
  | ⟨2, _⟩ => show d.val = win0_3.index t (2 : Fin 3) * 64 + 1 * d.val; omega

/-- An index of the result array is in point t's block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0).slice (win0_3.rect t)).set ↔ _
  rw [View.set_slice_whole, Rect.mem_set_unit]
  exact Iff.rfl

/-- The cover: index (b, i, d) is in the block of point 2 b + i div 1024, and every point writes back. -/
theorem cover (i : S32x2048x64.Idx) : ∃ t : Fin cfg0.N, (cfg0.win 3).flush t = true ∧ i ∈ ((cfg0.win 3).blk t).view.set := by
  have hN : cfg0.N = 64 := N_0
  have hi0 : (i 0).val < 32 := (i 0).isLt
  have hi1 : (i 1).val < 2048 := (i 1).isLt
  have hi2 : (i 2).val < 64 := (i 2).isLt
  obtain ⟨t, tv⟩ : ∃ t : Fin cfg0.N, t.val = 2 * (i 0).val + (i 1).val / 1024 := ⟨⟨2 * (i 0).val + (i 1).val / 1024, by omega⟩, rfl⟩
  obtain ⟨-, -, -, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The result array after the run is attention of the argument arrays, everywhere. -/
theorem final (c : Dev nD) : (dats m 0 c).arrAt 3 cfg0.N = attnIn (argQ m c) (argK m c) (argV m c) :=
  (dats m 0 c).arrAt_eq_of_cover 3 (attnIn (argQ m c) (argK m c) (argV m c)) (fun t _ => flushed_eq m c t) cover

/-- The kernel's run, read: the result array at attention of the arguments, the arguments unchanged. -/
theorem run : θ_run defs (onTc (τ := τ) (main (F := Ideal))) ⟨m, fun _ => 0, ρ⟩ fun r => ∀ c : Dev nD,
      r.2.mem ((c : Thread nD τ).loc main_v0) = attnIn (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.ReferenceValue.lean ====
/-
  The reference's result, entry by entry, as attention of its three arguments with the scale outside the contraction
  and the weights by quotient.

  Its operations in order: the batched contraction of q with k over the last axis of both, divided by the pattern of 8:
  the scores; their maximum along the last axis from minus infinity, once more maximised against minus infinity, which
  changes nothing; the scores minus that maximum, exponentiated; the sum of those along the last axis from zero; the
  exponentials divided by it: the weights; and the batched contraction of the weights with v. The maximum and the sum
  are kept as [32, 2048, 1] and broadcast back along the last axis.
-/
import proofs.«116670_j13649406066811_2_alg».proof.Proof.Gen.ReferenceIdeal.Read
import proofs.«116670_j13649406066811_2_alg».proof.Proof.AttentionSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.AttentionSpec

/-! ## The operand indices of the generated readings, by coordinates -/

theorem lidx0 (b : Fin 32) (q j : Fin 2048) (k : Fin 64) : lidx_main_v0 (ix3 b q j) k = ix3 b q k :=
  funext fun a => by match a with | ⟨0, _⟩ => rfl | ⟨1, _⟩ => rfl | ⟨2, _⟩ => rfl
theorem ridx0 (b : Fin 32) (q j : Fin 2048) (k : Fin 64) : ridx_main_v0 (ix3 b q j) k = ix3 b j k :=
  funext fun a => by match a with | ⟨0, _⟩ => rfl | ⟨1, _⟩ => rfl | ⟨2, _⟩ => rfl
theorem idx7 (b : Fin 32) (q j : Fin 2048) : idx_main_v6 (idx_main_v7 (ix3 b q j)) = ix2 b q :=
  funext fun a => by match a with | ⟨0, _⟩ => rfl | ⟨1, _⟩ => rfl
theorem idx10 (b : Fin 32) (q : Fin 2048) (k : Fin 2048) : idx_main_v10 (ix2 b q) k = ix3 b q k :=
  funext fun a => by match a with | ⟨0, _⟩ => rfl | ⟨1, _⟩ => rfl | ⟨2, _⟩ => rfl
theorem idx12 (b : Fin 32) (q j : Fin 2048) : idx_main_v11 (idx_main_v12 (ix3 b q j)) = ix2 b q :=
  funext fun a => by match a with | ⟨0, _⟩ => rfl | ⟨1, _⟩ => rfl
theorem lidx14 (b : Fin 32) (q : Fin 2048) (d : Fin 64) (k : Fin 2048) : lidx_main_v14 (ix3 b q d) k = ix3 b q k :=
  funext fun a => by match a with | ⟨0, _⟩ => rfl | ⟨1, _⟩ => rfl | ⟨2, _⟩ => rfl
theorem ridx14 (b : Fin 32) (q : Fin 2048) (d : Fin 64) (k : Fin 2048) : ridx_main_v14 (ix3 b q d) k = ix3 b k d :=
  funext fun a => by match a with | ⟨0, _⟩ => rfl | ⟨1, _⟩ => rfl | ⟨2, _⟩ => rfl

/-! ## The stages -/

/-- The scores: the contraction over the last axis of both operands, divided by 8. -/
theorem score_stage (x0 x1 : (⟨S32x2048x64, .f32⟩ : BufTy).Contents (Elt Ideal)) (b : Fin 32) (q j : Fin 2048) :
    val_main_v2 (F := Ideal) x0 x1 (ix3 b q j) = scoreOut x0 x1 b q j := by
  rw [val_main_v2_apply, val_main_v0_apply, val_main_v1_apply, val_main_cst_apply]
  simp only [lidx0, ridx0, Ideal.hostDivf_def, Ideal.ofBits_def]
  rfl

/-- The last axis of [32, 2048, 2048] reduces away. -/
theorem reducesLast : S32x2048x2048.Reduces [2] S32x2048 := by decide

/-- Row (b, q) with entry k of the last axis put back is (b, q, k). -/
theorem lift_last (b : Fin 32) (q : Fin 2048) (k : Fin (S32x2048x2048.size 2)) :
    reducesLast.lift (ix2 b q) k = ix3 b q (⟨k.val, k.isLt⟩ : Fin 2048) := by
  funext c; apply Fin.ext
  fin_cases c <;> rfl

/-- The maximum of row (b, q) of the scores: the host's reduce from minus infinity is the fold of the row, and the
    further maximum against minus infinity leaves it. -/
theorem max_stage (x0 x1 : (⟨S32x2048x64, .f32⟩ : BufTy).Contents (Elt Ideal)) (b : Fin 32) (q : Fin 2048) :
    val_main_v5 (F := Ideal) x0 x1 (ix2 b q) = rowMax fun j => val_main_v2 (F := Ideal) x0 x1 (ix3 b q j) := by
  rw [val_main_v5_apply, val_main_v4_apply, val_main_cst_1_apply]
  unfold val_main_v3
  rw [Host.reduce_eq_fold_single FloatOps.maximumf _ _ reducesTo_S32x2048x2048_S32x2048_d2 reducesLast h_S_]
  have hf : (val_main_v2 (F := Ideal) x0 x1 ∘ reducesLast.lift (ix2 b q))
      = fun j : Fin 2048 => val_main_v2 (F := Ideal) x0 x1 (ix3 b q j) :=
    funext fun k => congrArg (val_main_v2 (F := Ideal) x0 x1) (lift_last b q k)
  show max (Ideal.ofBits .f32 0xFF800000#32)
    (Finset.fold max (Ideal.ofBits .f32 0xFF800000#32) (val_main_v2 (F := Ideal) x0 x1 ∘ reducesLast.lift (ix2 b q))
      (Finset.univ : Finset (Fin 2048))) = _
  rw [hf]
  unfold rowMax
  rw [negInf_eq]
  exact max_eq_right bot_le

/-- The shifted exponentials: entry (b, q, j) is the softmax numerator of row (b, q) of the scores at j. -/
theorem exp_stage (x0 x1 : (⟨S32x2048x64, .f32⟩ : BufTy).Contents (Elt Ideal)) (b : Fin 32) (q j : Fin 2048) :
    val_main_v9 (F := Ideal) x0 x1 (ix3 b q j) = expShift (scoreOut x0 x1 b q) j := by
  rw [val_main_v9_apply, val_main_v8_apply, val_main_v7_apply, val_main_v6_apply, idx7, max_stage]
  simp only [score_stage, Ideal.hostUnary_exp_def, Ideal.subf_def]
  rfl

/-- The weights: each shifted exponential divided by its row's sum from zero. -/
theorem weight_stage (x0 x1 : (⟨S32x2048x64, .f32⟩ : BufTy).Contents (Elt Ideal)) (b : Fin 32) (q j : Fin 2048) :
    val_main_v13 (F := Ideal) x0 x1 (ix3 b q j) = weightDiv (scoreOut x0 x1 b q) j := by
  rw [val_main_v13_apply, val_main_v12_apply, val_main_v11_apply, idx12, val_main_v10_apply, val_main_cst_2_apply]
  simp only [idx10, exp_stage, Ideal.hostDivf_def, Ideal.ofBits_def, Ideal.ofBits_zero_f32, zero_add]
  rfl

/-- The reference's result is attention of its arguments, scale outside and weights by quotient. -/
theorem result_eq (x0 x1 x2 : (⟨S32x2048x64, .f32⟩ : BufTy).Contents (Elt Ideal)) : val_main_v14 (F := Ideal) x0 x1 x2 = attnOut x0 x1 x2 := by
  funext i
  obtain ⟨b, q, d, rfl⟩ : ∃ (b : Fin 32) (q : Fin 2048) (d : Fin 64), i = ix3 b q d := ⟨i 0, i 1, i 2, eq_ix3 i⟩
  rw [val_main_v14_apply]
  simp only [lidx14, ridx14, weight_stage]
  rfl

end Cert.ReferenceIdeal.RefValue

end
-- ==== Proof.FiniteInputs.lean ====
/-
  From the precondition to real numbers.

  The precondition is the conjunction, over the three arguments, of "every entry's absolute value is below plus
  infinity". An extended real whose absolute value max x (-x) is below the top is neither the top nor the bottom, so
  it is a real number. Of the three conjuncts the attention law uses the first two, for q and for k.
-/
import proofs.«116670_j13649406066811_2_alg».proof.Proof.Gen.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace Cert.FiniteInputs

open Idealize.ShloMosaic Cert.Pre_finite_inputs

/-- The pattern of plus infinity is the top of the extended reals. -/
theorem posInf_eq : Ideal.ofBits .f32 0x7F800000#32 = ⊤ := by
  simp [Ideal.ofBits, Ideal.ieee]

/-- The scalar shape has one index. -/
instance : Subsingleton S_.Idx := ⟨fun a b => funext fun d => d.elim0⟩

/-- An extended real whose absolute value compares below the top is a real number. -/
theorem real_of_abs_lt_top (x : EReal) (h : Ideal.cmp .olt (max x (-x)) ⊤ = 1#1) : ∃ r : ℝ, x = r := by
  induction x using EReal.rec with
  | bot => exfalso; simp [Ideal.cmp] at h
  | top => exfalso; simp [Ideal.cmp] at h
  | coe r => exact ⟨r, rfl⟩

/-- One entry: where the comparison of |q| against an array that is plus infinity there answers 1, q is real. -/
theorem entry_real (q B : FVec Ideal S32x2048x64 .f32) (x : S32x2048x64.Idx) (hB : B x = ⊤)
    (e : cmpf .olt (Host.absf q) B x = 1#1) : ∃ r : ℝ, q x = r := by
  refine real_of_abs_lt_top (q x) ?_
  rw [← hB]
  exact e

/-- The scalar plus infinity broadcast to the array's shape is plus infinity at every index. -/
theorem bcast_top (x : S32x2048x64.Idx) :
    broadcastInDim S32x2048x64 ![] Facts.bcast_S_S32x2048x64 (constant (F := Ideal) S_ .f32 0x7F800000#32) x = ⊤ := by
  rw [broadcastInDim_apply _ Facts.bcast_S_S32x2048x64 _ x ValueIdx.ix0 (fun a => a.elim0)]
  exact posInf_eq

/-- The precondition gives reals: where it holds, every entry of the first and of the second argument is a real. -/
theorem real_of_pre (q k v : FVec Ideal S32x2048x64 .f32) (h : fn (F := Ideal) q k v = fun _ => 1#1) :
    (∀ x, ∃ r : ℝ, q x = r) ∧ (∀ x, ∃ r : ℝ, k x = r) := by
  have h0 := congrFun h ValueIdx.ix0
  dsimp only [fn, andi] at h0
  obtain ⟨h01, -⟩ := IntOp.andi_eq_one.1 h0
  obtain ⟨hq, hk⟩ := IntOp.andi_eq_one.1 h01
  exact ⟨fun x => entry_real q _ x (bcast_top x) (Host.reduce_andi_all _ _ _ _ _ hq x),
    fun x => entry_real k _ x (bcast_top x) (Host.reduce_andi_all _ _ _ _ _ hk x)⟩

end Cert.FiniteInputs

end
-- ==== Proof.lean ====
/-
  Scaled dot-product attention over q, k, v of shape [32, 2048, 64]: a kernel against a plain reference, equal entry
  by entry on the extended reals wherever the inputs are finite.

  The kernel visits 32 batches by 2 tiles of 1024 query rows. At the first tile of a batch it copies the batch's keys
  and values into two scratch arrays, which the second tile reuses. At every tile it scales the query rows by 1/8,
  contracts them with the keys, takes each row's maximum, exponentiates the scores' distance below it, sums each row,
  multiplies by the reciprocal of that sum, and contracts the resulting weights with the values. The reference
  contracts q with k, divides by 8, applies the same softmax with a quotient in place of the reciprocal, and contracts
  with v. Changes of float format are the identity on the extended reals.

  The proof reads each program as one function of the three arrays (attention with the scale inside and weights by
  reciprocal for the kernel; with the scale outside and weights by quotient for the reference) and shows the two
  functions equal where q and k hold real numbers: a real factor leaves a finite sum of reals, and a row of real scores
  has a real maximum, hence a nonzero real normaliser, by which dividing is multiplying by the reciprocal. The
  precondition, every input finite, gives that q and k hold reals; v is never opened. The three frames are the
  programs' runs with the result forgotten; the idealisation rewrote nothing, so it preserves the kernel trivially.
-/
import proofs.«116670_j13649406066811_2_alg».proof.Defs
import proofs.«116670_j13649406066811_2_alg».proof.Proof.Gen.Kernel
import proofs.«116670_j13649406066811_2_alg».proof.Proof.Gen.Kernel.Skeleton
import proofs.«116670_j13649406066811_2_alg».proof.Proof.Gen.Kernel.Launch
import proofs.«116670_j13649406066811_2_alg».proof.Proof.Gen.Kernel.Points
import proofs.«116670_j13649406066811_2_alg».proof.Proof.Gen.Kernel.Frame
import proofs.«116670_j13649406066811_2_alg».proof.Proof.Gen.KernelIdeal
import proofs.«116670_j13649406066811_2_alg».proof.Proof.Gen.KernelIdeal.Skeleton
import proofs.«116670_j13649406066811_2_alg».proof.Proof.Gen.KernelIdeal.Launch
import proofs.«116670_j13649406066811_2_alg».proof.Proof.Gen.KernelIdeal.Points
import proofs.«116670_j13649406066811_2_alg».proof.Proof.Gen.KernelIdeal.Frame
import proofs.«116670_j13649406066811_2_alg».proof.Proof.Gen.ReferenceIdeal
import proofs.«116670_j13649406066811_2_alg».proof.Proof.Gen.Pre_finite_inputs
import proofs.«116670_j13649406066811_2_alg».proof.Proof.Gen.KernelIdeal.Value
import proofs.«116670_j13649406066811_2_alg».proof.Proof.Gen.ReferenceIdeal.Run
import proofs.«116670_j13649406066811_2_alg».proof.Proof.Gen.ReferenceIdeal.Read
import proofs.«116670_j13649406066811_2_alg».proof.Proof.AttentionSpec
import proofs.«116670_j13649406066811_2_alg».proof.Proof.KernelValue
import proofs.«116670_j13649406066811_2_alg».proof.Proof.ReferenceValue
import proofs.«116670_j13649406066811_2_alg».proof.Proof.FiniteInputs
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- On finite inputs the kernel's result array and the reference's are one array of extended reals: the kernel's ends
    at attention with the scale inside and the weights by reciprocal, the reference's at attention with the scale
    outside and the weights by quotient, of arguments that agree, and these are one function where q and k are real. -/
theorem algebraic : Cert.algebraic_KernelIdeal_ReferenceIdeal := by
  intro m ρ m' ρ' hpre hagree
  refine ⟨fun c => Cert.AttentionSpec.attnIn (Cert.KernelIdeal.Blocks.argQ m c) (Cert.KernelIdeal.Blocks.argK m c)
    (Cert.KernelIdeal.Blocks.argV m c), Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]
  obtain ⟨hq, hk⟩ := Cert.FiniteInputs.real_of_pre _ _ _ (hpre c)
  exact (Cert.AttentionSpec.attnIn_eq_attnOut _ _ _ hq hk).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
